-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x800000 : Shape := ⟨2, ![2, 800000]⟩
abbrev S1000x128 : Shape := ⟨2, ![1000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S100000 32) (main_arg1 : IVec S2x800000 32) (main_arg2 : FVec F S1000x128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S1000x128 .f32 := Host.absf main_arg2
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000 : Shape := ⟨1, ![100000]⟩
abbrev S2x800000 : Shape := ⟨2, ![2, 800000]⟩
abbrev S1000x128 : Shape := ⟨2, ![1000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S100000x128 : Shape := ⟨2, ![100000, 128]⟩
abbrev S900000x128 : Shape := ⟨2, ![900000, 128]⟩
abbrev S5000x128 : Shape := ⟨2, ![5000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 102
  | .vmem => 14
  | .smem => 0
  | _ => 0

abbrev bufTy : (tb : Table) → Fin (tcTables nBuf tb) → BufTy
  | .hbm, ⟨0, _⟩ => ⟨S100000, .i32⟩
  | .hbm, ⟨1, _⟩ => ⟨S2x800000, .i32⟩
  | .hbm, ⟨2, _⟩ => ⟨S1000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S100000, .i32⟩
  | .hbm, ⟨14, _⟩ => ⟨S900000, .i32⟩
  | .hbm, ⟨15, _⟩ => ⟨S900000, .i32⟩
  | .hbm, ⟨16, _⟩ => ⟨S_, .f32⟩
  | .hbm, ⟨17, _⟩ => ⟨S900000, .f32⟩
  | .hbm, ⟨18, _⟩ => ⟨S_, .f32⟩
  | .hbm, ⟨19, _⟩ => ⟨S100000, .f32⟩
  | .hbm, ⟨20, _⟩ => ⟨S900000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S900000, .i32⟩
  | .hbm, ⟨35, _⟩ => ⟨S900000, .i1⟩
  | .hbm, ⟨36, _⟩ => ⟨S_, .i32⟩
  | .hbm, ⟨37, _⟩ => ⟨S900000, .i32⟩
  | .hbm, ⟨38, _⟩ => ⟨S900000, .i32⟩
  | .hbm, ⟨39, _⟩ => ⟨S900000, .i32⟩
  | .hbm, ⟨40, _⟩ => ⟨S900000x1, .i32⟩
  | .hbm, ⟨41, _⟩ => ⟨S900000, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000, .f32⟩
  | .hbm, ⟨51, _⟩ => ⟨S900000, .f32⟩
  | .hbm, ⟨52, _⟩ => ⟨S1000x128, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000x128, .f32⟩
  | .hbm, ⟨62, _⟩ => ⟨S100000x128, .bf16⟩
  | .hbm, ⟨63, _⟩ => ⟨S_, .i32⟩
  | .hbm, ⟨64, _⟩ => ⟨S900000, .i32⟩
  | .hbm, ⟨65, _⟩ => ⟨S900000, .i1⟩
  | .hbm, ⟨66, _⟩ => ⟨S_, .i32⟩
  | .hbm, ⟨67, _⟩ => ⟨S900000, .i32⟩
  | .hbm, ⟨68, _⟩ => ⟨S900000, .i32⟩
  | .hbm, ⟨69, _⟩ => ⟨S900000, .i32⟩
  | .hbm, ⟨70, _⟩ => ⟨S900000x1, .i32⟩
  | .hbm, ⟨71, _⟩ => ⟨S900000x128, .bf16⟩
  | .hbm, ⟨72, _⟩ => ⟨S900000x128, .f32⟩
  | .hbm, ⟨73, _⟩ => ⟨S900000x1, .f32⟩
  | .hbm, ⟨74, _⟩ => ⟨S900000x128, .f32⟩
  | .hbm, ⟨75, _⟩ => ⟨S900000x128, .f32⟩
  | .hbm, ⟨76, _⟩ => ⟨S_, .f32⟩
  | .hbm, ⟨77, _⟩ => ⟨S100000x128, .f32⟩
  | .hbm, ⟨78, _⟩ => ⟨S900000x1, .i32⟩
  | .hbm, ⟨79, _⟩ => ⟨S100000x128, .f32⟩
  | .hbm, ⟨80, _⟩ => ⟨S_, .f32⟩
  | .hbm, ⟨81, _⟩ => ⟨S128, .f32⟩
  | .hbm, ⟨82, _⟩ => ⟨S100000x128, .bf16⟩
  | .hbm, ⟨83, _⟩ => ⟨S_, .i32⟩
  | .hbm, ⟨84, _⟩ => ⟨S900000, .i32⟩
  | .hbm, ⟨85, _⟩ => ⟨S900000, .i1⟩
  | .hbm, ⟨86, _⟩ => ⟨S_, .i32⟩
  | .hbm, ⟨87, _⟩ => ⟨S900000, .i32⟩
  | .hbm, ⟨88, _⟩ => ⟨S900000, .i32⟩
  | .hbm, ⟨89, _⟩ => ⟨S900000, .i32⟩
  | .hbm, ⟨90, _⟩ => ⟨S900000x1, .i32⟩
  | .hbm, ⟨91, _⟩ => ⟨S900000x128, .bf16⟩
  | .hbm, ⟨92, _⟩ => ⟨S900000x128, .f32⟩
  | .hbm, ⟨93, _⟩ => ⟨S900000x1, .f32⟩
  | .hbm, ⟨94, _⟩ => ⟨S900000x128, .f32⟩
  | .hbm, ⟨95, _⟩ => ⟨S900000x128, .f32⟩
  | .hbm, ⟨96, _⟩ => ⟨S_, .f32⟩
  | .hbm, ⟨97, _⟩ => ⟨S100000x128, .f32⟩
  | .hbm, ⟨98, _⟩ => ⟨S900000x1, .i32⟩
  | .hbm, ⟨99, _⟩ => ⟨S100000x128, .f32⟩
  | .hbm, ⟨100, _⟩ => ⟨S100000x1, .f32⟩
  | .hbm, ⟨101, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S128, .f32⟩
  | .local _ .vmem, ⟨3, _⟩ => ⟨S128x128, .f32⟩
  | .local _ .vmem, ⟨4, _⟩ => ⟨S128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S128x1, .f32⟩
  | .local _ .vmem, ⟨11, _⟩ => ⟨S1, .f32⟩
  | .local _ .vmem, ⟨12, _⟩ => ⟨S5000x1, .f32⟩
  | .local _ .vmem, ⟨13, _⟩ => ⟨S5000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_c_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S100000_S100000x1_0 : S100000.BroadcastsInDim S100000x1 (![0] : Fin 1 → Fin S100000x1.rank)
  bitsLt_bf16_f32 : FTy.bits .bf16 < FTy.bits .f32
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S_S128 : S_.BroadcastsInDim S128 (![] : Fin 0 → Fin S128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128_S128 : S128.ShapeCasts S128
  packedbf16_S5000x128_S5000x128_0_0 : (Rect.unit (s := S5000x128) ![0, 0] S5000x128.size inb_S5000x128_S5000x128_0_0).PackedRows (EltTy.packing .bf16)
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S1000x128_S128x128_S1000x128_1_0_0_1_n_n_wf : DotDims.WF S1000x128 S128x128 S1000x128 [1] [0] [0] [1] [] []
  gather_S1000x128_S100000x1_S100000x128_1_0_n_n_0_1_1128_wf : GatherDims.WF S1000x128 S100000x1 S100000x128 [1] [0] [] [0] [] 1 ![1, 128]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1.size a ≤ S1.size a
  hwx1_3 : ∀ i : grid1.Coords, EltTy.bits .f32 = 32 ∨ (Rect.block (s := S1) S1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v54) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v70) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S5000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000 : Shape := ⟨1, ![100000]⟩
abbrev S2x800000 : Shape := ⟨2, ![2, 800000]⟩
abbrev S1000x128 : Shape := ⟨2, ![1000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S100000x1 : Shape := ⟨2, ![100000, 1]⟩
abbrev S100000x128 : Shape := ⟨2, ![100000, 128]⟩
abbrev S900000 : Shape := ⟨1, ![900000]⟩
abbrev S900000x1 : Shape := ⟨2, ![900000, 1]⟩
abbrev S900000x128 : Shape := ⟨2, ![900000, 128]⟩
abbrev S1x128 : Shape := ⟨2, ![1, 128]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S100000, .i32⟩
  | 1 => ⟨S2x800000, .i32⟩
  | 2 => ⟨S1000x128, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S100000, .i32⟩
  | 15 => ⟨S100000, .i1⟩
  | 16 => ⟨S_, .i32⟩
  | 17 => ⟨S100000, .i32⟩
  | 18 => ⟨S100000, .i32⟩
  | 19 => ⟨S100000, .i32⟩
  | 20 => ⟨S100000x1, .i32⟩
  | 21 => ⟨S100000x128, .f32⟩
  | 22 => ⟨S100000x128, .f32⟩
  | 23 => ⟨S100000, .i32⟩
  | 24 => ⟨S900000, .i32⟩
  | 25 => ⟨S900000, .i32⟩
  | 26 => ⟨S_, .f32⟩
  | 27 => ⟨S900000, .f32⟩
  | 28 => ⟨S_, .f32⟩
  | 29 => ⟨S100000, .f32⟩
  | 30 => ⟨S900000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S900000, .i32⟩
  | 45 => ⟨S900000, .i1⟩
  | 46 => ⟨S_, .i32⟩
  | 47 => ⟨S900000, .i32⟩
  | 48 => ⟨S900000, .i32⟩
  | 49 => ⟨S900000, .i32⟩
  | 50 => ⟨S900000x1, .i32⟩
  | 51 => ⟨S900000, .f32⟩
  | 52 => ⟨S_, .i32⟩
  | 53 => ⟨S900000, .i32⟩
  | 54 => ⟨S900000, .i1⟩
  | 55 => ⟨S_, .i32⟩
  | 56 => ⟨S900000, .i32⟩
  | 57 => ⟨S900000, .i32⟩
  | 58 => ⟨S900000, .i32⟩
  | 59 => ⟨S900000x1, .i32⟩
  | 60 => ⟨S900000, .f32⟩
  | 61 => ⟨S900000, .f32⟩
  | 62 => ⟨S_, .i32⟩
  | 63 => ⟨S900000, .i32⟩
  | 64 => ⟨S900000, .i1⟩
  | 65 => ⟨S_, .i32⟩
  | 66 => ⟨S900000, .i32⟩
  | 67 => ⟨S900000, .i32⟩
  | 68 => ⟨S900000, .i32⟩
  | 69 => ⟨S900000x1, .i32⟩
  | 70 => ⟨S900000x128, .f32⟩
  | 71 => ⟨S900000x1, .f32⟩
  | 72 => ⟨S900000x128, .f32⟩
  | 73 => ⟨S900000x128, .f32⟩
  | 74 => ⟨S_, .f32⟩
  | 75 => ⟨S100000x128, .f32⟩
  | 76 => ⟨S900000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S100000, .i32⟩
  | 86 => ⟨S900000, .i32⟩
  | 87 => ⟨S900000, .i32⟩
  | 88 => ⟨S_, .f32⟩
  | 89 => ⟨S900000, .f32⟩
  | 90 => ⟨S_, .f32⟩
  | 91 => ⟨S100000, .f32⟩
  | 92 => ⟨S900000x1, .i32⟩
  | 93 => ⟨S100000, .f32⟩
  | 94 => ⟨S_, .f32⟩
  | 95 => ⟨S100000, .f32⟩
  | 96 => ⟨S100000, .i1⟩
  | 97 => ⟨S_, .f32⟩
  | 98 => ⟨S100000, .f32⟩
  | 99 => ⟨S100000, .f32⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S900000, .i32⟩
  | 107 => ⟨S900000, .i1⟩
  | 108 => ⟨S_, .i32⟩
  | 109 => ⟨S900000, .i32⟩
  | 110 => ⟨S900000, .i32⟩
  | 111 => ⟨S900000, .i32⟩
  | 112 => ⟨S900000x1, .i32⟩
  | 113 => ⟨S900000, .f32⟩
  | 114 => ⟨S_, .i32⟩
  | 115 => ⟨S900000, .i32⟩
  | 116 => ⟨S900000, .i1⟩
  | 117 => ⟨S_, .i32⟩
  | 118 => ⟨S900000, .i32⟩
  | 119 => ⟨S900000, .i32⟩
  | 120 => ⟨S900000, .i32⟩
  | 121 => ⟨S900000x1, .i32⟩
  | 122 => ⟨S900000, .f32⟩
  | 123 => ⟨S900000, .f32⟩
  | 124 => ⟨S_, .i32⟩
  | 125 => ⟨S900000, .i32⟩
  | 126 => ⟨S900000, .i1⟩
  | 127 => ⟨S_, .i32⟩
  | _ => ⟨S100000, .i32⟩

abbrev hbmTy0_1 (i : Nat) : BufTy := match i % 128 with
  | 0 => ⟨S900000, .i32⟩
  | 1 => ⟨S900000, .i32⟩
  | 2 => ⟨S900000, .i32⟩
  | 3 => ⟨S900000x1, .i32⟩
  | 4 => ⟨S900000x128, .f32⟩
  | 5 => ⟨S900000x1, .f32⟩
  | 6 => ⟨S900000x128, .f32⟩
  | 7 => ⟨S900000x128, .f32⟩
  | 8 => ⟨S_, .f32⟩
  | 9 => ⟨S100000x128, .f32⟩
  | 10 => ⟨S900000x1, .i32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x1, .f32⟩
  | 19 => ⟨S1x1, .f32⟩
  | 20 => ⟨S100000x1, .f32⟩
  | 21 => ⟨S100000x1, .f32⟩
  | 22 => ⟨S100000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_16 : Ref sig .tc := ⟨.hbm, 101, rfl⟩
abbrev main_call2_v0 : Ref sig .tc := ⟨.hbm, 102, rfl⟩
abbrev main_call2_v1 : Ref sig .tc := ⟨.hbm, 103, rfl⟩
abbrev main_v70 : Ref sig .tc := ⟨.hbm, 104, rfl⟩
abbrev main_c_17 : Ref sig .tc := ⟨.hbm, 105, rfl⟩
abbrev main_v71 : Ref sig .tc := ⟨.hbm, 106, rfl⟩
abbrev main_v72 : Ref sig .tc := ⟨.hbm, 107, rfl⟩
abbrev main_c_18 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_21 : Ref sig .tc := ⟨.hbm, 124, rfl⟩
abbrev main_v86 : Ref sig .tc := ⟨.hbm, 125, rfl⟩
abbrev main_v87 : Ref sig .tc := ⟨.hbm, 126, rfl⟩
abbrev main_c_22 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_23 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call3_cst : Ref sig .tc := ⟨.hbm, 143, rfl⟩
abbrev main_call3_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S100000_S100000x1_0 : S100000.BroadcastsInDim S100000x1 (![0] : Fin 1 → Fin S100000x1.rank)
  concatenates_S800000_S100000_S900000_d0 : Shape.Concatenates [S800000, S100000] S900000 0
  bcast_S_S900000 : S_.BroadcastsInDim S900000 (![] : Fin 0 → Fin S900000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S1000x128_S100000x1_S100000x128_1_0_n_n_0_1_1128_wf : GatherDims.WF S1000x128 S100000x1 S100000x128 [1] [0] [] [0] [] 1 ![1, 128]
  dot_S100000x128_S128x128_S100000x128_1_0_0_1_n_n_wf : DotDims.WF S100000x128 S128x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x1_S100000x1_1_0_0_1_n_n_wf : DotDims.WF S100000x128 S128x1 S100000x1 [1] [0] [0] [1] [] []

variable [Facts₀]

def gather_S1000x128_S100000x1_S100000x128_1_0_n_n_0_1_1128 : GatherDims S1000x128 S100000x1 S100000x128 where
  offsetDims := [1]
  collapsedSliceDims := [0]
  operandBatchingDims := []
  startIndicesBatchingDims := []
  startIndexMap := [0]
  indexVectorDim := 1
  sliceSizes := ![1, 128]
  wf := gather_S1000x128_S100000x1_S100000x128_1_0_n_n_0_1_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RSpec.lean ====
/-
  The reference network as a composition of whole-array functions, in the reference program's own operations.
  With e the 2 × 800000 edge list: src e and dst e are its two rows with the 100000 self loops i → i appended;
  deg counts the edges arriving at a node, dinv is deg^(-1/2) where deg > 0 and 0 elsewhere, and the weight of an
  edge is norm = dinv (src) · dinv (dst).  One aggregation sends a node-feature array H to the array whose
  row v is the sum over the edges into v of weight · row (source) of H.  The network is
      out = relu (agg (relu (agg (emb[x] · W1) + b1) · W2) + b2) · Wf + bf.
-/
import proofs.«156661_j85933705659009_2_alg».proof.ReferenceIdeal
import proofs.«156661_j85933705659009_2_alg».proof.Proof.Gen.ReferenceIdeal

noncomputable section

namespace Cert.RSpec

open Cert.ReferenceIdeal Cert.ReferenceIdeal.Gen Idealize.ShloMosaic

variable {F : FTy → Type} [FloatOps F]

/-- The sources of the edges, then the self loops. -/
def src (e : (⟨S2x800000, .i32⟩ : BufTy).Contents (Elt F)) : (⟨S900000, .i32⟩ : BufTy).Contents (Elt F) :=
  concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0

/-- The targets of the edges, then the self loops. -/
def dst (e : (⟨S2x800000, .i32⟩ : BufTy).Contents (Elt F)) : (⟨S900000, .i32⟩ : BufTy).Contents (Elt F) :=
  concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0

/-- Node numbers as row indices of a lookup: a negative number counts from the end. -/
def wrap (v : (⟨S900000, .i32⟩ : BufTy).Contents (Elt F)) : (⟨S900000x1, .i32⟩ : BufTy).Contents (Elt F) :=
  broadcastInDim S900000x1 ![0] bcast_S900000_S900000x1_0 (select (cmpi .slt v (broadcastInDim S900000 ![] bcast_S_S900000 (constantI S_ 32 0#32))) (addi v (broadcastInDim S900000 ![] bcast_S_S900000 (constantI S_ 32 100000#32))) v)

/-- The number of edges into each node (self loop included). -/
def deg (e : (⟨S2x800000, .i32⟩ : BufTy).Contents (Elt F)) : (⟨S100000, .f32⟩ : BufTy).Contents (Elt F) :=
  Host.scatterAdd scatter_S100000_S900000x1_S900000_n_0_0_1 (broadcastInDim S100000 ![] bcast_S_S100000 (constant S_ .f32 0x00000000#32)) (broadcastInDim S900000x1 ![0] bcast_S900000_S900000x1_0 (dst e)) (broadcastInDim S900000 ![] bcast_S_S900000 (constant S_ .f32 0x3F800000#32))

/-- deg^(-1/2) where deg > 0, else 0. -/
def dinv (e : (⟨S2x800000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (maximumf (deg e) (broadcastInDim S100000 ![] bcast_S_S100000 (constant S_ .f32 0x2B8CBCCC#32)))) (broadcastInDim S100000 ![] bcast_S_S100000 (id (constant S_ .f32 0x00000000#32)))

/-- The weight of each edge: dinv at its source times dinv at its target. -/
def norm (e : (⟨S2x800000, .i32⟩ : BufTy).Contents (Elt F)) : (⟨S900000, .f32⟩ : BufTy).Contents (Elt F) :=
  mulf (Host.gather gather_S100000_S900000x1_S900000_n_0_n_n_0_1_1 (dinv e) (wrap (src e))) (Host.gather gather_S100000_S900000x1_S900000_n_0_n_n_0_1_1 (dinv e) (wrap (dst e)))

/-- The messages along the edges: a row per edge, scaled by the edge's weight. -/
def msgs (nrm : (⟨S900000, .f32⟩ : BufTy).Contents (Elt F)) (G : (⟨S900000x128, .f32⟩ : BufTy).Contents (Elt F)) : (⟨S900000x128, .f32⟩ : BufTy).Contents (Elt F) :=
  mulf G (broadcastInDim S900000x128 ![0, 1] bcast_S900000x1_S900000x128_0_1 (broadcastInDim S900000x1 ![0] bcast_S900000_S900000x1_0 nrm))

/-- The messages summed at their targets. -/
def scat (d : (⟨S900000, .i32⟩ : BufTy).Contents (Elt F)) (M : (⟨S900000x128, .f32⟩ : BufTy).Contents (Elt F)) : (⟨S100000x128, .f32⟩ : BufTy).Contents (Elt F) :=
  Host.scatterAdd scatter_S100000x128_S900000x1_S900000x128_1_0_0_1 (broadcastInDim S100000x128 ![] bcast_S_S100000x128 (constant S_ .f32 0x00000000#32)) (broadcastInDim S900000x1 ![0] bcast_S900000_S900000x1_0 d) M

/-- The token numbers as row indices of the embedding table. -/
def xidx (x : (⟨S100000, .i32⟩ : BufTy).Contents (Elt F)) : (⟨S100000x1, .i32⟩ : BufTy).Contents (Elt F) :=
  broadcastInDim S100000x1 ![0] bcast_S100000_S100000x1_0 (select (cmpi .slt x (broadcastInDim S100000 ![] bcast_S_S100000 (constantI S_ 32 0#32))) (addi x (broadcastInDim S100000 ![] bcast_S_S100000 (constantI S_ 32 1000#32))) x)

/-- One aggregation over edges with sources s, targets d and weights nrm: row v of the result is the weighted sum of
    the rows of H at the sources of the edges into v. -/
def aggP (s d : (⟨S900000, .i32⟩ : BufTy).Contents (Elt F)) (nrm : (⟨S900000, .f32⟩ : BufTy).Contents (Elt F)) (H : (⟨S100000x128, .f32⟩ : BufTy).Contents (Elt F)) : (⟨S100000x128, .f32⟩ : BufTy).Contents (Elt F) :=
  scat d (msgs nrm (Host.gather gather_S100000x128_S900000x1_S900000x128_1_0_n_n_0_1_1128 H (wrap s)))

/-- The aggregation over the graph of the edge list e. -/
def agg (e : (⟨S2x800000, .i32⟩ : BufTy).Contents (Elt F)) (H : (⟨S100000x128, .f32⟩ : BufTy).Contents (Elt F)) : (⟨S100000x128, .f32⟩ : BufTy).Contents (Elt F) :=
  aggP (src e) (dst e) (norm e) H

/-- relu (A + b), the bias added to every row. -/
def act (A : (⟨S100000x128, .f32⟩ : BufTy).Contents (Elt F)) (b : (⟨S128, .f32⟩ : BufTy).Contents (Elt F)) : (⟨S100000x128, .f32⟩ : BufTy).Contents (Elt F) :=
  maximumf (addf A (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The product with a 128 × 128 weight matrix. -/
def lin (H : (⟨S100000x128, .f32⟩ : BufTy).Contents (Elt F)) (W : (⟨S128x128, .f32⟩ : BufTy).Contents (Elt F)) : (⟨S100000x128, .f32⟩ : BufTy).Contents (Elt F) :=
  Host.dotGeneral dot_S100000x128_S128x128_S100000x128_1_0_0_1_n_n none H W

/-- The head: the product with the 128 × 1 matrix plus its bias, as a 100000 × 1 array. -/
def head (H : (⟨S100000x128, .f32⟩ : BufTy).Contents (Elt F)) (Wf : (⟨S128x1, .f32⟩ : BufTy).Contents (Elt F)) (bf : (⟨S1, .f32⟩ : BufTy).Contents (Elt F)) : (⟨S100000x1, .f32⟩ : BufTy).Contents (Elt F) :=
  addf (Host.dotGeneral dot_S100000x128_S128x1_S100000x1_1_0_0_1_n_n none H Wf) (broadcastInDim S100000x1 ![0, 1] bcast_S1x1_S100000x1_0_1 (broadcastInDim S1x1 ![1] bcast_S1_S1x1_1 bf))

/-- The first layer's linear part: the embedding rows of the tokens, times W1. -/
def lin1 (x : (⟨S100000, .i32⟩ : BufTy).Contents (Elt F)) (emb : (⟨S1000x128, .f32⟩ : BufTy).Contents (Elt F)) (W1 : (⟨S128x128, .f32⟩ : BufTy).Contents (Elt F)) : (⟨S100000x128, .f32⟩ : BufTy).Contents (Elt F) :=
  lin (Host.gather gather_S1000x128_S100000x1_S100000x128_1_0_n_n_0_1_1128 emb (xidx x)) W1

/-- The whole network. -/
def out (x : (⟨S100000, .i32⟩ : BufTy).Contents (Elt F)) (e : (⟨S2x800000, .i32⟩ : BufTy).Contents (Elt F))
    (emb : (⟨S1000x128, .f32⟩ : BufTy).Contents (Elt F)) (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (Wf : (⟨S128x1, .f32⟩ : BufTy).Contents (Elt F)) (bf : (⟨S1, .f32⟩ : BufTy).Contents (Elt F)) : (⟨S100000, .f32⟩ : BufTy).Contents (Elt F) :=
  shapeCast _ (head (act (agg e (lin (act (agg e (lin1 x emb W1)) b1) W2)) b2) Wf bf) shapeCasts_S100000x1_S100000

end Cert.RSpec

end
-- ==== Proof.RefVal.lean ====
/-
  The reference program's result term is the network of RSpec: the same operations applied in the same order, with the
  graph quantities that the program computes once per layer named once.
-/
import proofs.«156661_j85933705659009_2_alg».proof.Proof.RefRun
import proofs.«156661_j85933705659009_2_alg».proof.Proof.RSpec

noncomputable section

namespace Cert.RefVal

open Cert.ReferenceIdeal Cert.ReferenceIdeal.Gen Idealize.ShloMosaic Idealize.ShloMosaic.TcCoe Idealize.SL.Sem

variable {F : FTy → Type} [FloatOps F]

set_option maxRecDepth 8192 in
/-- The composed term of the reference's 142 operations is RSpec's network of the nine arguments. -/
theorem res_eq (m : (ℓ : Loc nD τ sig) → Buf (Elt F) ℓ) (c : Dev nD) :
    Cert.ReferenceIdeal.ValueP.res_main_v107 m c
      = Cert.RSpec.out (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  unfold Cert.ReferenceIdeal.ValueP.res_main_v107
  rfl

end Cert.RefVal

end
-- ==== Proof.KRun.lean ====
/-
  The idealized kernel program's run with its result named.  @main is five stretches of host operations around two
  kernel regions; the contents of every buffer at each boundary are a fold from the launch memory, and the last
  boundary's contents at the result buffer are what every terminating execution leaves there.  So: every weakly fair
  execution terminates, faults nowhere, leaves the arguments as launched and the result at that fold's value.
-/
import proofs.«156661_j85933705659009_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's seven segments, read at the result buffer as well as at the arguments: the last
    thread state holds every unscoped buffer at the last boundary's contents, and the result buffer is one of them. -/
theorem run_value : θ_run defs (onTc (τ := τ) (main (F := F))) ⟨m, fun _ => 0, ρ⟩ (fun r => ∀ c : Dev nD,
      r.2.mem ((c.tc : Thread nD τ).loc main_v72) = W7 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v72 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.KRun

end
-- ==== Proof.KSpec.lean ====
/-
  The host side of the kernel's program as whole-array functions, in that program's own operations.  The graph
  quantities (src, dst, deg, dinv, norm) are the reference's.  The kernel's program multiplies the embedding TABLE by
  W1 first and looks the tokens' rows up afterwards, keeps the looked-up rows in the narrow float format, and widens
  the rows again after each lookup along the edges; on the extended reals the two format changes are the identity.
-/
import proofs.«156661_j85933705659009_2_alg».proof.KernelIdeal
import proofs.«156661_j85933705659009_2_alg».proof.Proof.Gen.KernelIdeal

noncomputable section

namespace Cert.KSpec

open Cert.KernelIdeal Cert.KernelIdeal.Gen Idealize.ShloMosaic

variable {F : FTy → Type} [FloatOps F]

/-- The sources of the edges, then the self loops. -/
def src (e : (⟨S2x800000, .i32⟩ : BufTy).Contents (Elt F)) : (⟨S900000, .i32⟩ : BufTy).Contents (Elt F) :=
  concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0

/-- The targets of the edges, then the self loops. -/
def dst (e : (⟨S2x800000, .i32⟩ : BufTy).Contents (Elt F)) : (⟨S900000, .i32⟩ : BufTy).Contents (Elt F) :=
  concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0

/-- Node numbers as row indices of a lookup: a negative number counts from the end. -/
def wrap (v : (⟨S900000, .i32⟩ : BufTy).Contents (Elt F)) : (⟨S900000x1, .i32⟩ : BufTy).Contents (Elt F) :=
  broadcastInDim S900000x1 ![0] bcast_S900000_S900000x1_0 (select (cmpi .slt v (broadcastInDim S900000 ![] bcast_S_S900000 (constantI S_ 32 0#32))) (addi v (broadcastInDim S900000 ![] bcast_S_S900000 (constantI S_ 32 100000#32))) v)

/-- The number of edges into each node (self loop included). -/
def deg (e : (⟨S2x800000, .i32⟩ : BufTy).Contents (Elt F)) : (⟨S100000, .f32⟩ : BufTy).Contents (Elt F) :=
  Host.scatterAdd scatter_S100000_S900000x1_S900000_n_0_0_1 (broadcastInDim S100000 ![] bcast_S_S100000 (constant S_ .f32 0x00000000#32)) (broadcastInDim S900000x1 ![0] bcast_S900000_S900000x1_0 (dst e)) (broadcastInDim S900000 ![] bcast_S_S900000 (constant S_ .f32 0x3F800000#32))

/-- deg^(-1/2) where deg > 0, else 0. -/
def dinv (e : (⟨S2x800000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (maximumf (deg e) (broadcastInDim S100000 ![] bcast_S_S100000 (constant S_ .f32 0x2B8CBCCC#32)))) (broadcastInDim S100000 ![] bcast_S_S100000 (id (constant S_ .f32 0x00000000#32)))

/-- The weight of each edge: dinv at its source times dinv at its target. -/
def norm (e : (⟨S2x800000, .i32⟩ : BufTy).Contents (Elt F)) : (⟨S900000, .f32⟩ : BufTy).Contents (Elt F) :=
  mulf (Host.gather gather_S100000_S900000x1_S900000_n_0_n_n_0_1_1 (dinv e) (wrap (src e))) (Host.gather gather_S100000_S900000x1_S900000_n_0_n_n_0_1_1 (dinv e) (wrap (dst e)))

/-- The messages along the edges: a row per edge, scaled by the edge's weight. -/
def msgs (nrm : (⟨S900000, .f32⟩ : BufTy).Contents (Elt F)) (G : (⟨S900000x128, .f32⟩ : BufTy).Contents (Elt F)) : (⟨S900000x128, .f32⟩ : BufTy).Contents (Elt F) :=
  mulf G (broadcastInDim S900000x128 ![0, 1] bcast_S900000x1_S900000x128_0_1 (broadcastInDim S900000x1 ![0] bcast_S900000_S900000x1_0 nrm))

/-- The messages summed at their targets. -/
def scat (d : (⟨S900000, .i32⟩ : BufTy).Contents (Elt F)) (M : (⟨S900000x128, .f32⟩ : BufTy).Contents (Elt F)) : (⟨S100000x128, .f32⟩ : BufTy).Contents (Elt F) :=
  Host.scatterAdd scatter_S100000x128_S900000x1_S900000x128_1_0_0_1 (broadcastInDim S100000x128 ![] bcast_S_S100000x128 (constant S_ .f32 0x00000000#32)) (broadcastInDim S900000x1 ![0] bcast_S900000_S900000x1_0 d) M

/-- The token numbers as row indices of the embedding table. -/
def xidx (x : (⟨S100000, .i32⟩ : BufTy).Contents (Elt F)) : (⟨S100000x1, .i32⟩ : BufTy).Contents (Elt F) :=
  broadcastInDim S100000x1 ![0] bcast_S100000_S100000x1_0 (select (cmpi .slt x (broadcastInDim S100000 ![] bcast_S_S100000 (constantI S_ 32 0#32))) (addi x (broadcastInDim S100000 ![] bcast_S_S100000 (constantI S_ 32 1000#32))) x)

/-- One aggregation of rows kept in the narrow format: looked up along the edges, widened, weighted, summed at the targets. -/
def aggP (s d : (⟨S900000, .i32⟩ : BufTy).Contents (Elt F)) (nrm : (⟨S900000, .f32⟩ : BufTy).Contents (Elt F)) (H : (⟨S100000x128, .bf16⟩ : BufTy).Contents (Elt F)) : (⟨S100000x128, .f32⟩ : BufTy).Contents (Elt F) :=
  scat d (msgs nrm (extf .f32 (Host.gather gather_S100000x128_S900000x1_S900000x128_1_0_n_n_0_1_1128 H (wrap s)) bitsLt_bf16_f32))

/-- The first layer's linear part as the kernel's program computes it: the rows of emb · W1 at the tokens, narrowed. -/
def lin1 (x : (⟨S100000, .i32⟩ : BufTy).Contents (Elt F)) (emb : (⟨S1000x128, .f32⟩ : BufTy).Contents (Elt F)) (W1 : (⟨S128x128, .f32⟩ : BufTy).Contents (Elt F)) : (⟨S100000x128, .bf16⟩ : BufTy).Contents (Elt F) :=
  truncf .bf16 (Host.gather gather_S1000x128_S100000x1_S100000x128_1_0_n_n_0_1_1128 (Host.dotGeneral dot_S1000x128_S128x128_S1000x128_1_0_0_1_n_n none emb W1) (xidx x)) bitsLt_bf16_f32

/-- The zero bias the first kernel adds after its product. -/
def z128 : (⟨S128, .f32⟩ : BufTy).Contents (Elt F) :=
  broadcastInDim S128 ![] bcast_S_S128 (constant S_ .f32 0x00000000#32)

end Cert.KSpec

end
-- ==== Proof.KVal.lean ====
/-
  The contents of the kernel program's buffers at the boundaries of its two kernel regions, as functions of the
  arguments: each stretch of host operations read back, and a region's arrays taken from what the region leaves.
-/
import proofs.«156661_j85933705659009_2_alg».proof.Proof.Gen.KernelIdeal.Frame
import proofs.«156661_j85933705659009_2_alg».proof.Proof.KSpec

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## At the first region's entry -/

/-- The edge sources with the self loops. -/
theorem w3_v5 : W3 m ρ c (Proc.devRef .tc main_v5) = Cert.KSpec.src (F := F) (m ((c.tc : Thread nD τ).loc main_arg1)) := by
  dsimp only [W3, W2, W1]
  after_results_simp <;> rfl

/-- The edge targets with the self loops. -/
theorem w3_v6 : W3 m ρ c (Proc.devRef .tc main_v6) = Cert.KSpec.dst (F := F) (m ((c.tc : Thread nD τ).loc main_arg1)) := by
  dsimp only [W3, W2, W1]
  after_results_simp <;> rfl

/-- The edge weights. -/
theorem w3_v31 : W3 m ρ c (Proc.devRef .tc main_v31) = Cert.KSpec.norm (F := F) (m ((c.tc : Thread nD τ).loc main_arg1)) := by
  dsimp only [W3, W2, W1]
  after_results_simp <;> rfl

/-- The first aggregation, of the looked-up rows of emb · W1. -/
theorem w3_v54 : W3 m ρ c (Proc.devRef .tc main_v54)
    = Cert.KSpec.aggP (F := F) (Cert.KSpec.src (m ((c.tc : Thread nD τ).loc main_arg1))) (Cert.KSpec.dst (m ((c.tc : Thread nD τ).loc main_arg1))) (Cert.KSpec.norm (m ((c.tc : Thread nD τ).loc main_arg1)))
        (Cert.KSpec.lin1 (m ((c.tc : Thread nD τ).loc main_arg0)) (m ((c.tc : Thread nD τ).loc main_arg2)) (m ((c.tc : Thread nD τ).loc main_arg3))) := by
  dsimp only [W3, W2, W1]
  after_results_simp <;> rfl

/-- The zero bias. -/
theorem w3_v55 : W3 m ρ c (Proc.devRef .tc main_v55) = Cert.KSpec.z128 (F := F) := by
  dsimp only [W3, W2, W1]
  after_results_simp <;> rfl

theorem w3_arg4 : W3 m ρ c (Proc.devRef .tc main_arg4) = (m ((c.tc : Thread nD τ).loc main_arg4)) := by
  dsimp only [W3, W2, W1]
  after_results_simp <;> rfl

theorem w3_arg5 : W3 m ρ c (Proc.devRef .tc main_arg5) = (m ((c.tc : Thread nD τ).loc main_arg5)) := by
  dsimp only [W3, W2, W1]
  after_results_simp <;> rfl

theorem w3_arg6 : W3 m ρ c (Proc.devRef .tc main_arg6) = (m ((c.tc : Thread nD τ).loc main_arg6)) := by
  dsimp only [W3, W2, W1]
  after_results_simp <;> rfl

theorem w3_arg7 : W3 m ρ c (Proc.devRef .tc main_arg7) = (m ((c.tc : Thread nD τ).loc main_arg7)) := by
  dsimp only [W3, W2, W1]
  after_results_simp <;> rfl

theorem w3_arg8 : W3 m ρ c (Proc.devRef .tc main_arg8) = (m ((c.tc : Thread nD τ).loc main_arg8)) := by
  dsimp only [W3, W2, W1]
  after_results_simp <;> rfl

end Cert.KernelIdeal.KVal

end
-- ==== Proof.KChain.lean ====
/-
  The kernel program's buffers from the first region's exit to the return.  A region leaves in each of its arrays what
  its write-backs leave and touches nothing else; the host operations between the regions aggregate the first region's
  output along the edges again; the tail reshapes the second region's 100000 × 1 output to a vector.
-/
import proofs.«156661_j85933705659009_2_alg».proof.Proof.KVal

set_option maxRecDepth 16384

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## At the first region's exit -/

theorem w4_v5 : W4 m ρ c (Proc.devRef .tc main_v5) = Cert.KSpec.src (F := F) (m ((c.tc : Thread nD τ).loc main_arg1)) :=
  (W4_of_ne m ρ c main_v5 (by decide)).trans (w3_v5 m ρ c)
theorem w4_v6 : W4 m ρ c (Proc.devRef .tc main_v6) = Cert.KSpec.dst (F := F) (m ((c.tc : Thread nD τ).loc main_arg1)) :=
  (W4_of_ne m ρ c main_v6 (by decide)).trans (w3_v6 m ρ c)
theorem w4_v31 : W4 m ρ c (Proc.devRef .tc main_v31) = Cert.KSpec.norm (F := F) (m ((c.tc : Thread nD τ).loc main_arg1)) :=
  (W4_of_ne m ρ c main_v31 (by decide)).trans (w3_v31 m ρ c)
theorem w4_arg6 : W4 m ρ c (Proc.devRef .tc main_arg6) = (m ((c.tc : Thread nD τ).loc main_arg6)) :=
  (W4_of_ne m ρ c main_arg6 (by decide)).trans (w3_arg6 m ρ c)
theorem w4_arg7 : W4 m ρ c (Proc.devRef .tc main_arg7) = (m ((c.tc : Thread nD τ).loc main_arg7)) :=
  (W4_of_ne m ρ c main_arg7 (by decide)).trans (w3_arg7 m ρ c)
theorem w4_arg8 : W4 m ρ c (Proc.devRef .tc main_arg8) = (m ((c.tc : Thread nD τ).loc main_arg8)) :=
  (W4_of_ne m ρ c main_arg8 (by decide)).trans (w3_arg8 m ρ c)

/-- The first region's output array holds what its twenty write-backs leave. -/
theorem w4_v56 : W4 m ρ c (Proc.devRef .tc main_v56) = (dat0 (V3 m ρ) c).arrAt 4 cfg0.N :=
  W4_arr m ρ c 4

/-! ## At the second region's entry -/

/-- The second aggregation, of the first region's output. -/
theorem w5_v70 : W5 m ρ c (Proc.devRef .tc main_v70)
    = Cert.KSpec.aggP (F := F) (W4 m ρ c (Proc.devRef .tc main_v5)) (W4 m ρ c (Proc.devRef .tc main_v6)) (W4 m ρ c (Proc.devRef .tc main_v31))
        (W4 m ρ c (Proc.devRef .tc main_v56)) := by
  dsimp only [W5]
  after_results_simp <;> rfl

theorem w5_arg6 : W5 m ρ c (Proc.devRef .tc main_arg6) = (m ((c.tc : Thread nD τ).loc main_arg6)) :=
  (show W5 m ρ c (Proc.devRef .tc main_arg6) = W4 m ρ c (Proc.devRef .tc main_arg6) by
    dsimp only [W5]; after_results_simp <;> rfl).trans (w4_arg6 m ρ c)
theorem w5_arg7 : W5 m ρ c (Proc.devRef .tc main_arg7) = (m ((c.tc : Thread nD τ).loc main_arg7)) :=
  (show W5 m ρ c (Proc.devRef .tc main_arg7) = W4 m ρ c (Proc.devRef .tc main_arg7) by
    dsimp only [W5]; after_results_simp <;> rfl).trans (w4_arg7 m ρ c)
theorem w5_arg8 : W5 m ρ c (Proc.devRef .tc main_arg8) = (m ((c.tc : Thread nD τ).loc main_arg8)) :=
  (show W5 m ρ c (Proc.devRef .tc main_arg8) = W4 m ρ c (Proc.devRef .tc main_arg8) by
    dsimp only [W5]; after_results_simp <;> rfl).trans (w4_arg8 m ρ c)

/-! ## At the second region's exit, and the return -/

/-- The second region's output array holds what its twenty write-backs leave. -/
theorem w6_v71 : W6 m ρ c (Proc.devRef .tc main_v71) = (dat1 (V5 m ρ) c).arrAt 4 cfg1.N :=
  W6_arr m ρ c 4

/-- The result is the second region's output reshaped. -/
theorem w7_v72 : W7 m ρ c (Proc.devRef .tc main_v72)
    = shapeCast S100000 (W6 m ρ c (Proc.devRef .tc main_v71) : (⟨S100000x1, .f32⟩ : BufTy).Contents (Elt F)) shapeCasts_S100000x1_S100000 := by
  dsimp only [W7]
  after_results_simp <;> rfl

end Cert.KernelIdeal.KVal

end
-- ==== Proof.Spec.lean ====
/-
  One dense layer of the network read at a row and a column, on the extended reals.
  Row r of relu (P + b) · W + z: entry (r, q) is the sum over the 128 features k of
  max (P (r, k) + b k) 0 · W (k, q), plus z q.  Two widths occur: W of 128 columns and W of one column.
-/
import Idealize.ShloMosaic.PureOps.Ideal.Laws
import Idealize.ShloMosaic.Lib.ValueIdx

noncomputable section

namespace Cert.Spec

open Idealize.ShloMosaic Idealize.ShloMosaic.ValueIdx

/-- Entry (r, q) of relu (P + b) · W + z for a weight matrix of 128 columns. -/
def dense128 (P : (⟨2, ![100000, 128]⟩ : Shape).Idx → EReal) (b : (⟨1, ![128]⟩ : Shape).Idx → EReal)
    (W : (⟨2, ![128, 128]⟩ : Shape).Idx → EReal) (z : (⟨1, ![128]⟩ : Shape).Idx → EReal)
    (r : Fin 100000) (q : Fin 128) : EReal :=
  (∑ k : Fin 128, max (P (ix2 r k) + b (ix1 k)) 0 * W (ix2 k q)) + z (ix1 q)

/-- Entry (r, q) of relu (P + b) · W + z for a weight matrix of one column. -/
def dense1 (P : (⟨2, ![100000, 128]⟩ : Shape).Idx → EReal) (b : (⟨1, ![128]⟩ : Shape).Idx → EReal)
    (W : (⟨2, ![128, 1]⟩ : Shape).Idx → EReal) (z : (⟨1, ![1]⟩ : Shape).Idx → EReal)
    (r : Fin 100000) (q : Fin 1) : EReal :=
  (∑ k : Fin 128, max (P (ix2 r k) + b (ix1 k)) 0 * W (ix2 k q)) + z (ix1 q)

end Cert.Spec

end
-- ==== Proof.Tiles0.lean ====
/-
  From row tiles to the whole array, first dense layer.  The layer is  out = relu (x + b) · W + z  over an x of
  100000 rows, computed 5000 rows at a time: grid point t reads rows 5000 t … 5000 t + 4999 of x, the whole of b, W
  and z, and writes the same rows of out.  Read on the extended reals (a change of float format is the identity,
  the product accumulates into zero), entry (p, q) of what one point computes from its tile is
  Σ_k max (x (p, k) + b k) 0 · W (k, q) + z q; the tile's row p is row 5000 t + p of x, so what point t writes is
  rows 5000 t … of the whole layer's output; every row r lies in the tile of point r / 5000, so after the last point
  the output array is the layer's output everywhere.
-/
import proofs.«156661_j85933705659009_2_alg».proof.Proof.Gen.KernelIdeal.Frame
import proofs.«156661_j85933705659009_2_alg».proof.Proof.Spec
import Idealize.ShloMosaic.PureOps.Ideal.Laws
import Idealize.ShloMosaic.Lib.ValueIdx
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-! ## What one grid point computes from its tile, entry by entry -/

/-- A vector of 128 entries viewed as one row and repeated down 5000 rows reads entry q in column q. -/
theorem rowRep128 (v : S128.Idx → EReal) (p : Fin 5000) (q : Fin 128) :
    broadcastTo S5000x128 (shapeCast S1x128 v shapeCasts_S128_S1x128) broadcasts_S1x128_S5000x128 (ix2 p q) = v (ix1 q) := by
  refine (broadcastTo_apply _ broadcasts_S1x128_S5000x128 (ix2 p q) (ix2 (⟨0, Nat.one_pos⟩ : Fin 1) q) fun a => ?_).trans ?_
  · match a with
    | ⟨0, _⟩ => rfl
    | ⟨1, _⟩ => rfl
  · refine shapeCast_apply v shapeCasts_S128_S1x128 (ix2 (⟨0, Nat.one_pos⟩ : Fin 1) q) (ix1 q) ?_
    rw [Shape.rowMajor_val_one, Shape.rowMajor_val_two]
    show q.val = 0 * 128 + q.val
    omega

/-- The product of a 5000 × 128 tile with a 128 × 128 matrix, accumulated into zero, at entry (p, q): the sum over the
    128 contracted positions k of tile (p, k) · matrix (k, q). -/
theorem prod128 {φ₁ φ₂ : FTy} (L : FVec Ideal S5000x128 φ₁) (R : FVec Ideal S128x128 φ₂) (p : Fin 5000) (q : Fin 128) :
    matmul dot_S5000x128_S128x128_S5000x128_1_0_0_1_n_n none L R (constant S5000x128 .f32 0x00000000#32) (ix2 p q)
      = ∑ k : Fin 128, L (ix2 p k) * R (ix2 k q) := by
  show FloatOps.matmul dot_S5000x128_S128x128_S5000x128_1_0_0_1_n_n none L R (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => exact (DotDims.lhsIdx_val_of_single _ (cl := (1 : Fin 2)) rfl (ix2 p q) _).trans ck
  have er : dot_S5000x128_S128x128_S5000x128_1_0_0_1_n_n.rhsIdx (ix2 p q)
      ((contrEquiv1 dot_S5000x128_S128x128_S5000x128_1_0_0_1_n_n 128 rfl rfl).symm k) = ix2 k q := by
    funext ax; apply Fin.ext
    match ax with
    | ⟨0, _⟩ => exact (DotDims.rhsIdx_val_of_single _ (cr := (0 : Fin 2)) rfl (ix2 p q) _).trans ck
    | ⟨1, _⟩ => simp [DotDims.rhsIdx, dot_S5000x128_S128x128_S5000x128_1_0_0_1_n_n]; rfl
  rw [el, er]

/-- Entry (p, q) of what a grid point computes from its tile x0 of x and the whole b, W, z:
    Σ_k max (x0 (p, k) + b k) 0 · W (k, q) + z q. -/
theorem pay0_apply (x0 : Vec Ideal S5000x128 .f32) (x1 : Vec Ideal S128 .f32) (x2 : Vec Ideal S128x128 .f32)
    (x3 : Vec Ideal S128 .f32) (p : Fin 5000) (q : Fin 128) :
    k0_pay1 (F := Ideal) x0 x1 x2 x3 (ix2 p q)
      = (∑ k : Fin 128, max (x0 (ix2 p k) + x1 (ix1 k)) 0 * x2 (ix2 k q)) + x3 (ix1 q) := by
  unfold k0_pay1
  show (matmul (F := Ideal) dot_S5000x128_S128x128_S5000x128_1_0_0_1_n_n none _ _ (constant S5000x128 .f32 0x00000000#32) (ix2 p q) : EReal)
      + (broadcastTo S5000x128 (shapeCast S1x128 (shapeCast S128 x3 shapeCasts_S128_S128) shapeCasts_S128_S1x128) broadcasts_S1x128_S5000x128 (ix2 p q) : EReal) = _
  rw [prod128, rowRep128]
  simp only [shapeCast_self]
  refine congrArg (· + x3 (ix1 q)) (Finset.sum_congr rfl fun k _ => ?_)
  show max ((x0 (ix2 p k) : EReal)
      + (broadcastTo S5000x128 (shapeCast S1x128 x1 shapeCasts_S128_S1x128) broadcasts_S1x128_S5000x128 (ix2 p k) : EReal))
      (Ideal.ofBits .f32 0x00000000#32) * x2 (ix2 k q) = _
  rw [rowRep128, Ideal.ofBits_zero_f32]

/-! ## The tiles' places in the arrays -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Where each window's block sits at grid point t, decided over the 20 points: the tile of x and the tile of the
    output are block t of the rows and the only block of the columns; b, W and z are read whole. -/
theorem idx_facts : ∀ t : Fin cfg0.N, win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p of the tile of x at point t is row 5000 t + p of x. -/
theorem xTile_apply (c : Dev nD) (t : Fin cfg0.N) (p : Fin 5000) (k : Fin 128) (r : Fin 100000)
    (hr : r.val = 5000 * t.val + p.val) :
    (iblk0 V c 0 t : Vec Ideal S5000x128 .f32) (ix2 p k) = (V c main_v54 : S100000x128.Idx → EReal) (ix2 r k) := by
  obtain ⟨e0, e1, -⟩ := idx_facts t
  unfold iblk0
  rw [View.read_apply]
  show V c main_v54 _ = V c main_v54 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The block of b at any point is b. -/
theorem bBlock_apply (c : Dev nD) (t : Fin cfg0.N) (k : Fin 128) :
    (iblk0 V c 1 t : Vec Ideal S128 .f32) (ix1 k) = (V c main_arg4 : S128.Idx → EReal) (ix1 k) := by
  obtain ⟨-, -, e2, -⟩ := idx_facts t
  unfold iblk0
  rw [View.read_apply]
  show V c main_arg4 _ = V c main_arg4 _
  congr 1
  funext a
  apply Fin.ext
  match a with
  | ⟨0, _⟩ => show win0_1.index t (0 : Fin 1) * 128 + 1 * k.val = k.val; rw [e2]; omega

/-- The block of W at any point is W. -/
theorem wBlock_apply (c : Dev nD) (t : Fin cfg0.N) (k q : Fin 128) :
    (iblk0 V c 2 t : Vec Ideal S128x128 .f32) (ix2 k q) = (V c main_arg5 : S128x128.Idx → EReal) (ix2 k q) := by
  obtain ⟨-, -, -, e3, e4, -⟩ := idx_facts t
  unfold iblk0
  rw [View.read_apply]
  show V c main_arg5 _ = V c main_arg5 _
  congr 1
  funext a
  apply Fin.ext
  match a with
  | ⟨0, _⟩ => show win0_2.index t (0 : Fin 2) * 128 + 1 * k.val = k.val; rw [e3]; omega
  | ⟨1, _⟩ => show win0_2.index t (1 : Fin 2) * 128 + 1 * q.val = q.val; rw [e4]; omega

/-- The block of z at any point is z. -/
theorem zBlock_apply (c : Dev nD) (t : Fin cfg0.N) (q : Fin 128) :
    (iblk0 V c 3 t : Vec Ideal S128 .f32) (ix1 q) = (V c main_v55 : S128.Idx → EReal) (ix1 q) := by
  obtain ⟨-, -, -, -, -, e5, -⟩ := idx_facts t
  unfold iblk0
  rw [View.read_apply]
  show V c main_v55 _ = V c main_v55 _
  congr 1
  funext a
  apply Fin.ext
  match a with
  | ⟨0, _⟩ => show win0_3.index t (0 : Fin 1) * 128 + 1 * q.val = q.val; rw [e5]; omega

/-- Entry (p, q) of what point t computes is entry (5000 t + p, q) of the layer's output. -/
theorem tile_eq (c : Dev nD) (t : Fin cfg0.N) (p : Fin 5000) (q : Fin 128) (r : Fin 100000) (q' : Fin 128)
    (hr : r.val = 5000 * t.val + p.val) (hq : q'.val = q.val) :
    k0_pay1 (F := Ideal) (iblk0 V c 0 t) (iblk0 V c 1 t) (iblk0 V c 2 t) (iblk0 V c 3 t) (ix2 p q)
      = Cert.Spec.dense128 (V c main_v54) (V c main_arg4) (V c main_arg5) (V c main_v55) r q' := by
  obtain rfl : q' = q := Fin.ext hq
  refine (pay0_apply (iblk0 V c 0 t) (iblk0 V c 1 t) (iblk0 V c 2 t) (iblk0 V c 3 t) p q').trans ?_
  unfold Cert.Spec.dense128
  refine congrArg₂ (· + ·) (Finset.sum_congr rfl fun k _ => ?_) (zBlock_apply V c t q')
  exact congrArg₂ (· * ·)
    (congrArg (fun u : EReal => max u 0) (congrArg₂ (· + ·) (xTile_apply V c t p k r hr) (bBlock_apply V c t k)))
    (wBlock_apply V c t k q')

/-! ## What each point writes back, and the whole output -/

/-- Point t writes back rows 5000 t … 5000 t + 4999 of the layer's output. -/
theorem flushed_eq (c : Dev nD) (t : Fin cfg0.N) :
    (dat0 (F := Ideal) V c).flushed 4 t = ((cfg0.win 4).blk t).view.read (Elt Ideal)
      (fun i => Cert.Spec.dense128 (V c main_v54) (V c main_arg4) (V c main_arg5) (V c main_v55) (i 0) (i 1)) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128x128) hz2, View.ld_unit_zero (S := S128) hz1]
  obtain ⟨-, -, -, -, -, -, e6, e7⟩ := idx_facts t
  funext j
  have hj0 : (j 0).val < 5000 := (j 0).isLt
  have hj1 : (j 1).val < 128 := (j 1).isLt
  have hpq : (cfg0.win 4).xinj (grid0.coords t) j = ix2 (⟨(j 0).val, hj0⟩ : Fin 5000) (⟨(j 1).val, hj1⟩ : Fin 128) :=
    funext fun a => by
      match a with
      | ⟨0, _⟩ => rfl
      | ⟨1, _⟩ => rfl
  show k0_pay1 (F := Ideal) (iblk0 V c 0 t) (iblk0 V c 1 t) (iblk0 V c 2 t) (iblk0 V c 3 t) ((cfg0.win 4).xinj (grid0.coords t) j)
    = Cert.Spec.dense128 (V c main_v54) (V c main_arg4) (V c main_arg5) (V c main_v55)
        ((((cfg0.win 4).blk t).view.emb j) 0) ((((cfg0.win 4).blk t).view.emb j) 1)
  rw [hpq]
  refine tile_eq V c t _ _ _ _ ?_ ?_
  · show win0_4.index t (0 : Fin 2) * 5000 + 1 * (j 0).val = 5000 * t.val + (j 0).val
    rw [e6]; omega
  · show win0_4.index t (1 : Fin 2) * 128 + 1 * (j 1).val = (j 1).val
    rw [e7]; omega

/-- A row and column are in point t's block of the output iff they are in its range on each axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v56).slice (win0_4.rect t)).set ↔ _
  rw [View.set_slice_whole, Rect.mem_set_unit]
  exact Iff.rfl

/-- Row r is in the block of point r / 5000: the 20 blocks cover the output. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 :=
    ⟨⟨(i 0).val / 5000, lt_of_lt_of_eq (by omega : (i 0).val / 5000 < 20) hN.symm⟩, rfl⟩
  obtain ⟨-, -, -, -, -, -, e6, e7⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    rw [e6]; omega
  | ⟨1, _⟩ =>
    show win0_4.index t (1 : Fin 2) * 128 ≤ (i 1).val ∧ (i 1).val < win0_4.index t (1 : Fin 2) * 128 + 128
    rw [e7]; omega

/-- After the last point the output array is the layer's output: entry (r, q) is
    Σ_k max (x (r, k) + b k) 0 · W (k, q) + z q. -/
theorem final0 (c : Dev nD) :
    (dat0 (F := Ideal) V c).arrAt 4 cfg0.N
      = fun i => Cert.Spec.dense128 (V c main_v54) (V c main_arg4) (V c main_arg5) (V c main_v55) (i 0) (i 1) :=
  (dat0 V c).arrAt_eq_of_cover 4 _ (fun t _ => flushed_eq V c t) cover

end Cert.KernelIdeal.Tiles

end
-- ==== Proof.Tiles1.lean ====
/-
  From row tiles to the whole array, second dense layer.  The layer is  out = relu (x + b) · W + z  with a weight
  matrix W of one column, over an x of 100000 rows, computed 5000 rows at a time: grid point t reads rows
  5000 t … 5000 t + 4999 of x, the whole of b, W and z, and writes the same rows of the one-column output.  Read on
  the extended reals (a change of float format is the identity, the product accumulates into zero), entry (p, 0) of
  what one point computes from its tile is Σ_k max (x (p, k) + b k) 0 · W (k, 0) + z 0; the tile's row p is row
  5000 t + p of x, so what point t writes is rows 5000 t … of the whole layer's output; every row r lies in the tile
  of point r / 5000, so after the last point the output array is the layer's output everywhere.
-/
import proofs.«156661_j85933705659009_2_alg».proof.Proof.Gen.KernelIdeal.Frame
import proofs.«156661_j85933705659009_2_alg».proof.Proof.Spec
import Idealize.ShloMosaic.PureOps.Ideal.Laws
import Idealize.ShloMosaic.Lib.ValueIdx
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

/-! ## What one grid point computes from its tile, entry by entry -/

/-- A vector of 128 entries viewed as one row and repeated down 5000 rows reads entry q in column q. -/
theorem bRep1 (v : S128.Idx → EReal) (p : Fin 5000) (q : Fin 128) :
    broadcastTo S5000x128 (shapeCast S1x128 v shapeCasts_S128_S1x128) broadcasts_S1x128_S5000x128 (ix2 p q) = v (ix1 q) := by
  refine (broadcastTo_apply _ broadcasts_S1x128_S5000x128 (ix2 p q) (ix2 (⟨0, Nat.one_pos⟩ : Fin 1) q) fun a => ?_).trans ?_
  · match a with
    | ⟨0, _⟩ => rfl
    | ⟨1, _⟩ => rfl
  · refine shapeCast_apply v shapeCasts_S128_S1x128 (ix2 (⟨0, Nat.one_pos⟩ : Fin 1) q) (ix1 q) ?_
    rw [Shape.rowMajor_val_one, Shape.rowMajor_val_two]
    show q.val = 0 * 128 + q.val
    omega

/-- A vector of one entry viewed as a 1 × 1 array and repeated down 5000 rows reads that entry in every row. -/
theorem zRep1 (v : S1.Idx → EReal) (p : Fin 5000) (q : Fin 1) :
    broadcastTo S5000x1 (shapeCast S1x1 v shapeCasts_S1_S1x1) broadcasts_S1x1_S5000x1 (ix2 p q) = v (ix1 q) := by
  have hq := q.isLt
  refine (broadcastTo_apply _ broadcasts_S1x1_S5000x1 (ix2 p q) (ix2 (⟨0, Nat.one_pos⟩ : Fin 1) (⟨0, Nat.one_pos⟩ : Fin 1)) fun a => ?_).trans ?_
  · match a with
    | ⟨0, _⟩ => rfl
    | ⟨1, _⟩ => rfl
  · refine shapeCast_apply v shapeCasts_S1_S1x1 (ix2 (⟨0, Nat.one_pos⟩ : Fin 1) (⟨0, Nat.one_pos⟩ : Fin 1)) (ix1 q) ?_
    rw [Shape.rowMajor_val_one, Shape.rowMajor_val_two]
    show q.val = 0 * 1 + 0
    omega

/-- The product of a 5000 × 128 tile with a 128 × 1 matrix, accumulated into zero, at entry (p, q): the sum over the
    128 contracted positions k of tile (p, k) · matrix (k, q). -/
theorem prod1 {φ₁ φ₂ : FTy} (L : FVec Ideal S5000x128 φ₁) (R : FVec Ideal S128x1 φ₂) (p : Fin 5000) (q : Fin 1) :
    matmul dot_S5000x128_S128x1_S5000x1_1_0_0_1_n_n none L R (constant S5000x1 .f32 0x00000000#32) (ix2 p q)
      = ∑ k : Fin 128, L (ix2 p k) * R (ix2 k q) := by
  show FloatOps.matmul dot_S5000x128_S128x1_S5000x1_1_0_0_1_n_n none L R (constant S5000x1 .f32 0x00000000#32) (ix2 p q) = _
  rw [Ideal.matmul_constant_zero_apply,
    ← Equiv.sum_comp (contrEquiv1 dot_S5000x128_S128x1_S5000x1_1_0_0_1_n_n 128 rfl rfl).symm]
  refine Finset.sum_congr rfl fun k _ => ?_
  have ck := contrEquiv1_symm_val dot_S5000x128_S128x1_S5000x1_1_0_0_1_n_n 128 rfl rfl k
  have el : dot_S5000x128_S128x1_S5000x1_1_0_0_1_n_n.lhsIdx (ix2 p q)
      ((contrEquiv1 dot_S5000x128_S128x1_S5000x1_1_0_0_1_n_n 128 rfl rfl).symm k) = ix2 p k := by
    funext ax; apply Fin.ext
    match ax with
    | ⟨0, _⟩ => simp [DotDims.lhsIdx, dot_S5000x128_S128x1_S5000x1_1_0_0_1_n_n]; rfl
    | ⟨1, _⟩ => exact (DotDims.lhsIdx_val_of_single _ (cl := (1 : Fin 2)) rfl (ix2 p q) _).trans ck
  have er : dot_S5000x128_S128x1_S5000x1_1_0_0_1_n_n.rhsIdx (ix2 p q)
      ((contrEquiv1 dot_S5000x128_S128x1_S5000x1_1_0_0_1_n_n 128 rfl rfl).symm k) = ix2 k q := by
    funext ax; apply Fin.ext
    match ax with
    | ⟨0, _⟩ => exact (DotDims.rhsIdx_val_of_single _ (cr := (0 : Fin 2)) rfl (ix2 p q) _).trans ck
    | ⟨1, _⟩ => simp [DotDims.rhsIdx, dot_S5000x128_S128x1_S5000x1_1_0_0_1_n_n]
  rw [el, er]

/-- Entry (p, q) of what a grid point computes from its tile x0 of x and the whole b, W, z:
    Σ_k max (x0 (p, k) + b k) 0 · W (k, q) + z q. -/
theorem pay1_apply (x0 : Vec Ideal S5000x128 .f32) (x1 : Vec Ideal S128 .f32) (x2 : Vec Ideal S128x1 .f32)
    (x3 : Vec Ideal S1 .f32) (p : Fin 5000) (q : Fin 1) :
    k1_pay1 (F := Ideal) x0 x1 x2 x3 (ix2 p q)
      = (∑ k : Fin 128, max (x0 (ix2 p k) + x1 (ix1 k)) 0 * x2 (ix2 k q)) + x3 (ix1 q) := by
  unfold k1_pay1
  show (matmul (F := Ideal) dot_S5000x128_S128x1_S5000x1_1_0_0_1_n_n none _ _ (constant S5000x1 .f32 0x00000000#32) (ix2 p q) : EReal)
      + (broadcastTo S5000x1 (shapeCast S1x1 x3 shapeCasts_S1_S1x1) broadcasts_S1x1_S5000x1 (ix2 p q) : EReal) = _
  rw [prod1, zRep1]
  simp only [shapeCast_self]
  refine congrArg (· + x3 (ix1 q)) (Finset.sum_congr rfl fun k _ => ?_)
  show max ((x0 (ix2 p k) : EReal)
      + (broadcastTo S5000x128 (shapeCast S1x128 x1 shapeCasts_S128_S1x128) broadcasts_S1x128_S5000x128 (ix2 p k) : EReal))
      (Ideal.ofBits .f32 0x00000000#32) * x2 (ix2 k q) = _
  rw [bRep1, Ideal.ofBits_zero_f32]

/-! ## The tiles' places in the arrays -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- Where each window's block sits at grid point t, decided over the 20 points: the tile of x and the tile of the
    output are block t of the rows and the only block of the columns; b, W and z are read whole. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row p of the tile of x at point t is row 5000 t + p of x. -/
theorem xTile1_apply (c : Dev nD) (t : Fin cfg1.N) (p : Fin 5000) (k : Fin 128) (r : Fin 100000)
    (hr : r.val = 5000 * t.val + p.val) :
    (iblk1 V c 0 t : Vec Ideal S5000x128 .f32) (ix2 p k) = (V c main_v70 : S100000x128.Idx → EReal) (ix2 r k) := by
  obtain ⟨e0, e1, -⟩ := idx_facts1 t
  unfold iblk1
  rw [View.read_apply]
  show V c main_v70 _ = V c main_v70 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The block of b at any point is b. -/
theorem bBlock1_apply (c : Dev nD) (t : Fin cfg1.N) (k : Fin 128) :
    (iblk1 V c 1 t : Vec Ideal S128 .f32) (ix1 k) = (V c main_arg6 : S128.Idx → EReal) (ix1 k) := by
  obtain ⟨-, -, e2, -⟩ := idx_facts1 t
  unfold iblk1
  rw [View.read_apply]
  show V c main_arg6 _ = V c main_arg6 _
  congr 1
  funext a
  apply Fin.ext
  match a with
  | ⟨0, _⟩ => show win1_1.index t (0 : Fin 1) * 128 + 1 * k.val = k.val; rw [e2]; omega

/-- The block of W at any point is W. -/
theorem wBlock1_apply (c : Dev nD) (t : Fin cfg1.N) (k : Fin 128) (q : Fin 1) :
    (iblk1 V c 2 t : Vec Ideal S128x1 .f32) (ix2 k q) = (V c main_arg7 : S128x1.Idx → EReal) (ix2 k q) := by
  obtain ⟨-, -, -, e3, e4, -⟩ := idx_facts1 t
  unfold iblk1
  rw [View.read_apply]
  show V c main_arg7 _ = V c main_arg7 _
  congr 1
  funext a
  apply Fin.ext
  match a with
  | ⟨0, _⟩ => show win1_2.index t (0 : Fin 2) * 128 + 1 * k.val = k.val; rw [e3]; omega
  | ⟨1, _⟩ => show win1_2.index t (1 : Fin 2) * 1 + 1 * q.val = q.val; rw [e4]; omega

/-- The block of z at any point is z. -/
theorem zBlock1_apply (c : Dev nD) (t : Fin cfg1.N) (q : Fin 1) :
    (iblk1 V c 3 t : Vec Ideal S1 .f32) (ix1 q) = (V c main_arg8 : S1.Idx → EReal) (ix1 q) := by
  obtain ⟨-, -, -, -, -, e5, -⟩ := idx_facts1 t
  unfold iblk1
  rw [View.read_apply]
  show V c main_arg8 _ = V c main_arg8 _
  congr 1
  funext a
  apply Fin.ext
  match a with
  | ⟨0, _⟩ => show win1_3.index t (0 : Fin 1) * 1 + 1 * q.val = q.val; rw [e5]; omega

/-- Entry (p, q) of what point t computes is entry (5000 t + p, q) of the layer's output. -/
theorem tile1_eq (c : Dev nD) (t : Fin cfg1.N) (p : Fin 5000) (q : Fin 1) (r : Fin 100000) (q' : Fin 1)
    (hr : r.val = 5000 * t.val + p.val) (hq : q'.val = q.val) :
    k1_pay1 (F := Ideal) (iblk1 V c 0 t) (iblk1 V c 1 t) (iblk1 V c 2 t) (iblk1 V c 3 t) (ix2 p q)
      = Cert.Spec.dense1 (V c main_v70) (V c main_arg6) (V c main_arg7) (V c main_arg8) r q' := by
  obtain rfl : q' = q := Fin.ext hq
  refine (pay1_apply (iblk1 V c 0 t) (iblk1 V c 1 t) (iblk1 V c 2 t) (iblk1 V c 3 t) p q').trans ?_
  unfold Cert.Spec.dense1
  refine congrArg₂ (· + ·) (Finset.sum_congr rfl fun k _ => ?_) (zBlock1_apply V c t q')
  exact congrArg₂ (· * ·)
    (congrArg (fun u : EReal => max u 0) (congrArg₂ (· + ·) (xTile1_apply V c t p k r hr) (bBlock1_apply V c t k)))
    (wBlock1_apply V c t k q')

/-! ## What each point writes back, and the whole output -/

/-- Point t writes back rows 5000 t … 5000 t + 4999 of the layer's output. -/
theorem flushed1_eq (c : Dev nD) (t : Fin cfg1.N) :
    (dat1 (F := Ideal) V c).flushed 4 t = ((cfg1.win 4).blk t).view.read (Elt Ideal)
      (fun i => Cert.Spec.dense1 (V c main_v70) (V c main_arg6) (V c main_arg7) (V c main_arg8) (i 0) (i 1)) := by
  show (cfg1.win 4).cut (grid1.coords t) ((dat1 V c).after 4 t) = _
  rw [after1_4]
  unfold out1_4
  rw [View.canon_unit_zero zeros2]
  simp only [View.ld_unit_zero (S := S5000x128) zeros2, View.ld_unit_zero (S := S128x1) zeros2,
    View.ld_unit_zero (S := S128) zeros1, View.ld_unit_zero (S := S1) zeros1]
  obtain ⟨-, -, -, -, -, -, e6, e7⟩ := idx_facts1 t
  funext j
  have hj0 : (j 0).val < 5000 := (j 0).isLt
  have hj1 : (j 1).val < 1 := (j 1).isLt
  have hpq : (cfg1.win 4).xinj (grid1.coords t) j = ix2 (⟨(j 0).val, hj0⟩ : Fin 5000) (⟨(j 1).val, hj1⟩ : Fin 1) :=
    funext fun a => by
      match a with
      | ⟨0, _⟩ => rfl
      | ⟨1, _⟩ => rfl
  show k1_pay1 (F := Ideal) (iblk1 V c 0 t) (iblk1 V c 1 t) (iblk1 V c 2 t) (iblk1 V c 3 t) ((cfg1.win 4).xinj (grid1.coords t) j)
    = Cert.Spec.dense1 (V c main_v70) (V c main_arg6) (V c main_arg7) (V c main_arg8)
        ((((cfg1.win 4).blk t).view.emb j) 0) ((((cfg1.win 4).blk t).view.emb j) 1)
  rw [hpq]
  refine tile1_eq V c t _ _ _ _ ?_ ?_
  · show win1_4.index t (0 : Fin 2) * 5000 + 1 * (j 0).val = 5000 * t.val + (j 0).val
    rw [e6]; omega
  · show win1_4.index t (1 : Fin 2) * 1 + 1 * (j 1).val = (j 1).val
    rw [e7]; omega

/-- A row and column are in point t's block of the output iff they are in its range on each axis. -/
theorem mem_blk1 (t : Fin cfg1.N) (i : S100000x1.Idx) :
    i ∈ ((cfg1.win 4).blk t).view.set ↔ ∀ a : Fin 2, win1_4.index t a * S5000x1.size a ≤ (i a).val
      ∧ (i a).val < win1_4.index t a * S5000x1.size a + S5000x1.size a := by
  show i ∈ ((View.whole main_v71).slice (win1_4.rect t)).set ↔ _
  rw [View.set_slice_whole, Rect.mem_set_unit]
  exact Iff.rfl

/-- Row r is in the block of point r / 5000: the 20 blocks cover the output. -/
theorem cover1 (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  have hN : cfg1.N = 20 := N_1
  obtain ⟨t, ht⟩ : ∃ t : Fin cfg1.N, t.val = (i 0).val / 5000 :=
    ⟨⟨(i 0).val / 5000, lt_of_lt_of_eq (by omega : (i 0).val / 5000 < 20) hN.symm⟩, rfl⟩
  obtain ⟨-, -, -, -, -, -, e6, e7⟩ := idx_facts1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e6]; omega
  | ⟨1, _⟩ =>
    show win1_4.index t (1 : Fin 2) * 1 ≤ (i 1).val ∧ (i 1).val < win1_4.index t (1 : Fin 2) * 1 + 1
    rw [e7]; omega

/-- After the last point the output array is the layer's output: entry (r, 0) is
    Σ_k max (x (r, k) + b k) 0 · W (k, 0) + z 0. -/
theorem final1 (c : Dev nD) :
    (dat1 (F := Ideal) V c).arrAt 4 cfg1.N
      = fun i => Cert.Spec.dense1 (V c main_v70) (V c main_arg6) (V c main_arg7) (V c main_arg8) (i 0) (i 1) :=
  (dat1 V c).arrAt_eq_of_cover 4 _ (fun t _ => flushed1_eq V c t) cover1

end Cert.KernelIdeal.Tiles

end
-- ==== Proof.LibHostDotNN.lean ====
/-
  The host's matrix product of an M × K left operand by a K × N right operand (the left contracted on its second axis,
  the right on its first: jnp's x @ y), read at one entry of the result on the extended reals: entry (p, q) is the sum
  over k of left (p, k) · right (k, q), with no accumulator and whatever the precision. Every extent is arbitrary; the
  dimension record is any record with that contraction, its few structural facts passed as hypotheses (each is closed
  by rfl at a printed record).
-/
import Idealize.ShloMosaic.PureOps.Ideal.Laws
import Idealize.ShloMosaic.Lib.ValueIdx

noncomputable section

namespace Cert.HostDotNN

open Idealize.ShloMosaic Idealize.ShloMosaic.ValueIdx

/-- Entry (p, q) of the host's left · right is ∑ₖ left (p, k) · right (k, q). -/
theorem apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ (j : (⟨2, ![M, N]⟩ : Shape).Idx) (q : d.contr.Idx), (d.lhsIdx j q 0).val = (j 0).val)
    (hr1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.HostDotNN

end
-- ==== Proof.LibGatherRows.lean ====
/-
  Row gathers read at an index.

  `x[idx]` on the leading axis of an array lowers to a `stablehlo.gather` that collapses the leading operand axis,
  takes the whole of the remaining axis (if there is one) as the offset axis, and reads one start index per result
  row off a trailing unit axis of the index array.  Result element `(r, q)` is then the operand's element
  `(clamp (idx r), q)`: the start index read as a signed integer and clamped into `[0, N − 1]`, as the gather
  clamps every start index.  Three shapes of this are read here, every extent arbitrary:
    • a matrix `[N, C]` at indices `[R, 1]`, result `[R, C]`            (`gather_rows_apply`);
    • a vector `[N]` at indices `[R, 1]`, result `[R]`                  (`gather_elts_apply`);
    • a matrix `[N, C]` at indices `[A, B, 1]`, result `[A, B, C]`      (`gather_rows3_apply`).
  The dimension records are built from their well-formedness proof, so a printed record of the same lists is
  the record here by `rfl`.
-/
import Idealize.ShloMosaic.Lib.ValueIdx

noncomputable section

namespace Cert.GatherRows

open Idealize.ShloMosaic Idealize.ShloMosaic.ValueIdx

variable {α : Type}

/-- A start index word read signed and clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) : (clampRow N hN v).val = min v.toInt.toNat (N - 1) := rfl

/-! ## A matrix at `[R, 1]` indices -/

/-- The row gather's dimension numbers for an operand `[N, C]`, start indices `[R, 1]`, result `[R, C]`. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element `(r, q)` of the row gather is the operand's `(clamp (idx (r, 0)), q)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowsDims N C R wf) x idx (ix2 r q) = x (ix2 (clampRow N hN (idx (ix2 r (0 : Fin 1)))) q) := by
  unfold Host.gather
  congr 1
  funext a
  refine Fin.ext ?_
  match a with
  | ⟨0, _⟩ =>
    show (rowsDims N C R wf).start (ix2 r q) idx 0 + (rowsDims N C R wf).batchCoord (ix2 r q) 0
      + (rowsDims N C R wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r q) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r q) idx 1 + (rowsDims N C R wf).batchCoord (ix2 r q) 1
      + (rowsDims N C R wf).offCoord (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-! ## A vector at `[R, 1]` indices -/

/-- The element gather's dimension numbers for an operand `[N]`, start indices `[R, 1]`, result `[R]`. -/
abbrev eltsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the element gather is the operand's `clamp (idx (r, 0))`. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (eltsDims N R wf) x idx (ix1 r) = x (ix1 (clampRow N hN (idx (ix2 r (0 : Fin 1))))) := by
  unfold Host.gather
  congr 1
  funext a
  refine Fin.ext ?_
  match a with
  | ⟨0, _⟩ =>
    show (eltsDims N R wf).start (ix1 r) idx 0 + (eltsDims N R wf).batchCoord (ix1 r) 0
      + (eltsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (eltsDims N R wf).startIndexMap from List.mem_singleton.mpr rfl)]
    have hsi : (eltsDims N R wf).siIdx (ix1 r) ⟨List.idxOf (0 : Fin 1) (eltsDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## A matrix at `[A, B, 1]` indices -/

/-- The row gather's dimension numbers for an operand `[N, C]`, start indices `[A, B, 1]`, result `[A, B, C]`. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Result element `(a, b, q)` of the row gather is the operand's `(clamp (idx (a, b, 0)), q)`. -/
theorem gather_rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rows3Dims N C A B wf) x idx (ix3 a b q) = x (ix2 (clampRow N hN (idx (ix3 a b (0 : Fin 1)))) q) := by
  unfold Host.gather
  congr 1
  funext e
  refine Fin.ext ?_
  match e with
  | ⟨0, _⟩ =>
    show (rows3Dims N C A B wf).start (ix3 a b q) idx 0 + (rows3Dims N C A B wf).batchCoord (ix3 a b q) 0
      + (rows3Dims N C A B wf).offCoord (ix3 a b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b q) ⟨List.idxOf (0 : Fin 2) (rows3Dims N C A B wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show (rows3Dims N C A B wf).start (ix3 a b q) idx 1 + (rows3Dims N C A B wf).batchCoord (ix3 a b q) 1
      + (rows3Dims N C A B wf).offCoord (ix3 a b q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.GatherRows

end
-- ==== Proof.Algebra.lean ====
/-
  The laws that join the two programs, on the extended reals.

  * A dense layer read entry by entry: entry (r, q) of relu (P + b) · W is the sum over k of
    max (P (r, k) + b k) 0 · W (k, q); adding a bias that is 0 everywhere changes nothing.
  * Looking rows up commutes with multiplying by a matrix on the right: row r of (emb · W1)[t] and row r of emb[t] · W1
    are both the row emb (t r, ·) times W1 — entry (r, q) is the sum over k of emb (t r, k) · W1 (k, q) either way.
  * A change of float format is the identity, so rows kept in the narrow format and widened again are the rows.
-/
import proofs.«156661_j85933705659009_2_alg».proof.Proof.RSpec
import proofs.«156661_j85933705659009_2_alg».proof.Proof.KSpec
import proofs.«156661_j85933705659009_2_alg».proof.Proof.Spec
import proofs.«156661_j85933705659009_2_alg».proof.Proof.LibHostDotNN
import proofs.«156661_j85933705659009_2_alg».proof.Proof.LibGatherRows
import Idealize.ShloMosaic.PureOps.Ideal.Laws
import Idealize.ShloMosaic.Lib.ValueIdx
import Idealize.ShloMosaic.Lib.Pipeline.Value

noncomputable section

namespace Cert.Algebra

open Idealize.ShloMosaic Idealize.ShloMosaic.ValueIdx

/-! ## Broadcasts read at an entry -/

/-- A bias of 128 entries repeated down 100000 rows reads entry l in column l. -/
theorem bias128 (b : (⟨1, ![128]⟩ : Shape).Idx → EReal)
    (g1 : (⟨1, ![128]⟩ : Shape).BroadcastsInDim ⟨2, ![1, 128]⟩ ![1])
    (g2 : (⟨2, ![1, 128]⟩ : Shape).BroadcastsInDim ⟨2, ![100000, 128]⟩ ![0, 1]) (r : Fin 100000) (l : Fin 128) :
    broadcastInDim ⟨2, ![100000, 128]⟩ ![0, 1] g2 (broadcastInDim ⟨2, ![1, 128]⟩ ![1] g1 b) (ix2 r l) = b (ix1 l) := by
  have hl := l.isLt
  refine (broadcastInDim_apply _ g2 _ (ix2 r l) (ix2 ⟨0, Nat.one_pos⟩ l) fun a => ?_).trans ?_
  · match a with
    | ⟨0, _⟩ => rfl
    | ⟨1, _⟩ =>
      show l.val = if (128 : Nat) = 1 then 0 else l.val
      split <;> omega
  · refine (broadcastInDim_apply _ g1 b (ix2 ⟨0, Nat.one_pos⟩ l) (ix1 l) fun a => ?_)
    match a with
    | ⟨0, _⟩ =>
      show l.val = if (128 : Nat) = 1 then 0 else l.val
      split <;> omega

/-- A bias of one entry repeated down 100000 rows of one column reads that entry. -/
theorem bias1 (b : (⟨1, ![1]⟩ : Shape).Idx → EReal)
    (g1 : (⟨1, ![1]⟩ : Shape).BroadcastsInDim ⟨2, ![1, 1]⟩ ![1])
    (g2 : (⟨2, ![1, 1]⟩ : Shape).BroadcastsInDim ⟨2, ![100000, 1]⟩ ![0, 1]) (r : Fin 100000) (l : Fin 1) :
    broadcastInDim ⟨2, ![100000, 1]⟩ ![0, 1] g2 (broadcastInDim ⟨2, ![1, 1]⟩ ![1] g1 b) (ix2 r l) = b (ix1 l) := by
  have hl := l.isLt
  refine (broadcastInDim_apply _ g2 _ (ix2 r l) (ix2 ⟨0, Nat.one_pos⟩ l) fun a => ?_).trans ?_
  · match a with
    | ⟨0, _⟩ => rfl
    | ⟨1, _⟩ =>
      show l.val = if (1 : Nat) = 1 then 0 else l.val
      split <;> omega
  · refine (broadcastInDim_apply _ g1 b (ix2 ⟨0, Nat.one_pos⟩ l) (ix1 l) fun a => ?_)
    match a with
    | ⟨0, _⟩ =>
      show l.val = if (1 : Nat) = 1 then 0 else l.val
      split <;> omega

/-- The zero word spread over any shape reads 0 everywhere. -/
theorem zeros_apply {t : Shape} (g : (⟨0, ![]⟩ : Shape).BroadcastsInDim t ![]) (j : t.Idx) :
    broadcastInDim t ![] g (constant (F := Ideal) ⟨0, ![]⟩ .f32 0x00000000#32) j = 0 := by
  refine (broadcastInDim_apply _ g _ j ix0 fun a => a.elim0).trans ?_
  rw [constant_apply, Ideal.ofBits_zero_f32]

/-! ## The dense layers entry by entry -/

/-- relu (P + b) · W with the zero bias added is the host's product of the host's relu (P + b) with W. -/
theorem dense128_eq (P : (⟨Cert.ReferenceIdeal.S100000x128, .f32⟩ : BufTy).Contents (Elt Ideal)) (b : (⟨Cert.ReferenceIdeal.S128, .f32⟩ : BufTy).Contents (Elt Ideal)) (W : (⟨Cert.ReferenceIdeal.S128x128, .f32⟩ : BufTy).Contents (Elt Ideal)) :
    (fun i : Cert.ReferenceIdeal.S100000x128.Idx => Cert.Spec.dense128 P b W (Cert.KSpec.z128 (F := Ideal)) (i 0) (i 1))
      = Cert.RSpec.lin (F := Ideal) (Cert.RSpec.act P b) W := by
  funext i
  obtain ⟨r, q, rfl⟩ : ∃ (r : Fin 100000) (q : Fin 128), i = ix2 r q := ⟨i 0, i 1, eq_ix2 i⟩
  show Cert.Spec.dense128 P b W _ r q = _
  unfold Cert.Spec.dense128 Cert.RSpec.lin
  rw [Cert.HostDotNN.apply (M := 100000) (K := 128) (N := 128) Cert.ReferenceIdeal.dot_S100000x128_S128x128_S100000x128_1_0_0_1_n_n
    rfl rfl rfl rfl (fun _ _ => rfl) (fun _ _ => rfl) none _ W r q]
  have hz : Cert.KSpec.z128 (F := Ideal) (ix1 q) = 0 := zeros_apply _ _
  rw [hz, add_zero]
  refine Finset.sum_congr rfl fun k _ => ?_
  unfold Cert.RSpec.act
  rw [maximumf_apply, addf_apply, bias128, zeros_apply]

/-- relu (P + b) · Wf + bf for the one-column head is the host's head of the host's relu (P + b). -/
theorem dense1_eq (P : (⟨Cert.ReferenceIdeal.S100000x128, .f32⟩ : BufTy).Contents (Elt Ideal)) (b : (⟨Cert.ReferenceIdeal.S128, .f32⟩ : BufTy).Contents (Elt Ideal)) (Wf : (⟨Cert.ReferenceIdeal.S128x1, .f32⟩ : BufTy).Contents (Elt Ideal)) (bf : (⟨Cert.ReferenceIdeal.S1, .f32⟩ : BufTy).Contents (Elt Ideal)) :
    (fun i : Cert.ReferenceIdeal.S100000x1.Idx => Cert.Spec.dense1 P b Wf bf (i 0) (i 1))
      = Cert.RSpec.head (F := Ideal) (Cert.RSpec.act P b) Wf bf := by
  funext i
  obtain ⟨r, q, rfl⟩ : ∃ (r : Fin 100000) (q : Fin 1), i = ix2 r q := ⟨i 0, i 1, eq_ix2 i⟩
  show Cert.Spec.dense1 P b Wf bf r q = _
  unfold Cert.Spec.dense1 Cert.RSpec.head
  rw [addf_apply, bias1, Cert.HostDotNN.apply (M := 100000) (K := 128) (N := 1) Cert.ReferenceIdeal.dot_S100000x128_S128x1_S100000x1_1_0_0_1_n_n
    rfl rfl rfl rfl (fun _ _ => rfl) (fun _ _ => rfl) none _ Wf r q]
  refine congrArg (· + bf (ix1 q)) (Finset.sum_congr rfl fun k _ => ?_)
  unfold Cert.RSpec.act
  rw [maximumf_apply, addf_apply, bias128, zeros_apply]

/-! ## The graph quantities and the aggregation are the reference's -/

theorem src_eq (e : (⟨Cert.ReferenceIdeal.S2x800000, .i32⟩ : BufTy).Contents (Elt Ideal)) : Cert.KSpec.src (F := Ideal) e = Cert.RSpec.src (F := Ideal) e := rfl
theorem dst_eq (e : (⟨Cert.ReferenceIdeal.S2x800000, .i32⟩ : BufTy).Contents (Elt Ideal)) : Cert.KSpec.dst (F := Ideal) e = Cert.RSpec.dst (F := Ideal) e := rfl
theorem norm_eq (e : (⟨Cert.ReferenceIdeal.S2x800000, .i32⟩ : BufTy).Contents (Elt Ideal)) : Cert.KSpec.norm (F := Ideal) e = Cert.RSpec.norm (F := Ideal) e := rfl

/-- Rows kept in the narrow format and widened after the lookup are the rows: the aggregation is the reference's. -/
theorem aggP_eq (s d : (⟨Cert.ReferenceIdeal.S900000, .i32⟩ : BufTy).Contents (Elt Ideal)) (n : (⟨Cert.ReferenceIdeal.S900000, .f32⟩ : BufTy).Contents (Elt Ideal)) (H : (⟨Cert.ReferenceIdeal.S100000x128, .f32⟩ : BufTy).Contents (Elt Ideal)) :
    Cert.KSpec.aggP (F := Ideal) s d n H = Cert.RSpec.aggP (F := Ideal) s d n H := rfl

/-! ## Looking rows up commutes with a product on the right -/

/-- The rows of emb · W1 at the tokens are the tokens' rows of emb, times W1. -/
theorem lin1_eq (x : (⟨Cert.ReferenceIdeal.S100000, .i32⟩ : BufTy).Contents (Elt Ideal)) (emb : (⟨Cert.ReferenceIdeal.S1000x128, .f32⟩ : BufTy).Contents (Elt Ideal)) (W1 : (⟨Cert.ReferenceIdeal.S128x128, .f32⟩ : BufTy).Contents (Elt Ideal)) :
    Cert.KSpec.lin1 (F := Ideal) x emb W1 = Cert.RSpec.lin1 (F := Ideal) x emb W1 := by
  funext i
  obtain ⟨r, q, rfl⟩ : ∃ (r : Fin 100000) (q : Fin 128), i = ix2 r q := ⟨i 0, i 1, eq_ix2 i⟩
  unfold Cert.KSpec.lin1 Cert.RSpec.lin1 Cert.RSpec.lin
  rw [truncf_apply]
  rw [Cert.HostDotNN.apply (M := 100000) (K := 128) (N := 128) Cert.ReferenceIdeal.dot_S100000x128_S128x128_S100000x128_1_0_0_1_n_n
    rfl rfl rfl rfl (fun _ _ => rfl) (fun _ _ => rfl) none _ W1 r q]
  refine (Cert.GatherRows.gather_rows_apply (N := 1000) (C := 128) (R := 100000) (by decide)
    Cert.KernelIdeal.Gen.gather_S1000x128_S100000x1_S100000x128_1_0_n_n_0_1_1128_wf _ _ r q).trans ?_
  rw [Cert.HostDotNN.apply (M := 1000) (K := 128) (N := 128) Cert.KernelIdeal.dot_S1000x128_S128x128_S1000x128_1_0_0_1_n_n
    rfl rfl rfl rfl (fun _ _ => rfl) (fun _ _ => rfl) none emb W1 _ q]
  refine Finset.sum_congr rfl fun k _ => ?_
  refine congrArg (· * W1 (ix2 k q)) ?_
  exact (Cert.GatherRows.gather_rows_apply (N := 1000) (C := 128) (R := 100000) (by decide)
    Cert.ReferenceIdeal.Gen.gather_S1000x128_S100000x1_S100000x128_1_0_n_n_0_1_1128_wf emb _ r k).symm

end Cert.Algebra

end
-- ==== Proof.KFinal.lean ====
/-
  The idealized kernel program's result is the reference network of its arguments.

  Read from the return backwards: the result is the second region's output reshaped; that output is, entry by entry,
  the head relu (P₂ + b2) · Wf + bf of the region's input P₂; P₂ is the aggregation of the first region's output along
  the edges; the first region's output is relu (P₁ + b1) · W2 (its added bias is zero); P₁ is the aggregation of the
  rows of emb · W1 at the tokens, which are the tokens' rows of emb times W1.  With the format changes the identity,
  this is the reference's composition, term by term.
-/
import proofs.«156661_j85933705659009_2_alg».proof.Proof.KChain
import proofs.«156661_j85933705659009_2_alg».proof.Proof.Tiles0
import proofs.«156661_j85933705659009_2_alg».proof.Proof.Tiles1
import proofs.«156661_j85933705659009_2_alg».proof.Proof.Algebra

set_option maxRecDepth 16384

noncomputable section

namespace Cert.KernelIdeal.KVal

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The first region's output, as the reference's second linear layer of the first aggregation. -/
theorem first_region :
    W4 m ρ c (Proc.devRef .tc main_v56)
      = Cert.RSpec.lin (F := Ideal) (Cert.RSpec.act (Cert.RSpec.agg (m ((c.tc : Thread nD τ).loc main_arg1))
          (Cert.RSpec.lin1 (m ((c.tc : Thread nD τ).loc main_arg0)) (m ((c.tc : Thread nD τ).loc main_arg2)) (m ((c.tc : Thread nD τ).loc main_arg3)))) (m ((c.tc : Thread nD τ).loc main_arg4))) (m ((c.tc : Thread nD τ).loc main_arg5)) := by
  refine (w4_v56 m ρ c).trans ((Cert.KernelIdeal.Tiles.final0 (V3 m ρ) c).trans ?_)
  have e1 : V3 m ρ c main_v54 = _ := w3_v54 m ρ c
  have e2 : V3 m ρ c main_v55 = _ := w3_v55 m ρ c
  have e3 : V3 m ρ c main_arg4 = _ := w3_arg4 m ρ c
  have e4 : V3 m ρ c main_arg5 = _ := w3_arg5 m ρ c
  rw [e1, e2, e3, e4, Cert.Algebra.lin1_eq, Cert.Algebra.src_eq, Cert.Algebra.dst_eq, Cert.Algebra.norm_eq,
    Cert.Algebra.aggP_eq]
  exact Cert.Algebra.dense128_eq _ _ _

set_option maxHeartbeats 4000000 in
/-- The second region's output, as the reference's head of the second aggregation. -/
theorem second_region :
    W6 m ρ c (Proc.devRef .tc main_v71)
      = Cert.RSpec.head (F := Ideal) (Cert.RSpec.act (Cert.RSpec.agg (m ((c.tc : Thread nD τ).loc main_arg1))
          (Cert.RSpec.lin (Cert.RSpec.act (Cert.RSpec.agg (m ((c.tc : Thread nD τ).loc main_arg1))
            (Cert.RSpec.lin1 (m ((c.tc : Thread nD τ).loc main_arg0)) (m ((c.tc : Thread nD τ).loc main_arg2)) (m ((c.tc : Thread nD τ).loc main_arg3)))) (m ((c.tc : Thread nD τ).loc main_arg4))) (m ((c.tc : Thread nD τ).loc main_arg5))))
          (m ((c.tc : Thread nD τ).loc main_arg6))) (m ((c.tc : Thread nD τ).loc main_arg7)) (m ((c.tc : Thread nD τ).loc main_arg8)) := by
  refine (w6_v71 m ρ c).trans ((Cert.KernelIdeal.Tiles.final1 (V5 m ρ) c).trans ?_)
  have e1 : V5 m ρ c main_v70 = _ := w5_v70 m ρ c
  have e2 : V5 m ρ c main_arg6 = _ := w5_arg6 m ρ c
  have e3 : V5 m ρ c main_arg7 = _ := w5_arg7 m ρ c
  have e4 : V5 m ρ c main_arg8 = _ := w5_arg8 m ρ c
  rw [e1, e2, e3, e4, w4_v5, w4_v6, w4_v31, first_region, Cert.Algebra.src_eq, Cert.Algebra.dst_eq,
    Cert.Algebra.norm_eq, Cert.Algebra.aggP_eq]
  exact Cert.Algebra.dense1_eq _ _ _ _

/-- The kernel program's result is the reference network of the arguments. -/
theorem kernel_value :
    W7 m ρ c (Proc.devRef .tc main_v72)
      = Cert.RSpec.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [w7_v72, second_region]
  rfl

end Cert.KernelIdeal.KVal

end
-- ==== Proof.lean ====
/-
  A two-layer graph convolution with a linear head, a Pallas implementation against its jnp reference, equal on the
  extended reals.

  With A the edge-weighted adjacency (self loops added, weights deg^(-1/2) at both ends) the reference computes
      out = relu (A (relu (A (emb[x] · W1) + b1) · W2) + b2) · Wf + bf.
  The kernel's program differs in three ways, none of which changes a value on the extended reals:
    • it multiplies the embedding table by W1 first and looks the tokens' rows up afterwards — row r of (emb · W1)[x] and
      of emb[x] · W1 are the same sum over k of emb (x r, k) · W1 (k, q);
    • it runs relu (P + b) · W (+ a bias) of each layer as a kernel over 20 blocks of 5000 rows — row r of the product
      reads only row r of P, so the blocks written back are the blocks of the whole product; the first kernel's added
      bias is the zero vector;
    • it stores the rows it looks up along the edges in a narrower float format and widens them again — both changes
      of format are the identity on the extended reals.
  The graph quantities (sources, targets, degrees, edge weights) and the two scatter-adds are the same operations on
  the same arrays in both programs.  No law used needs a finite input, so the precondition is never opened.

  The three frames are the generated ones (the reference's is its run with the result forgotten); the ideal pass
  rewrote nothing, so the idealization claim is trivial.
-/
import proofs.«156661_j85933705659009_2_alg».proof.Defs
import proofs.«156661_j85933705659009_2_alg».proof.Proof.Gen.Kernel
import proofs.«156661_j85933705659009_2_alg».proof.Proof.Gen.Kernel.Skeleton
import proofs.«156661_j85933705659009_2_alg».proof.Proof.Gen.Kernel.Launch
import proofs.«156661_j85933705659009_2_alg».proof.Proof.Gen.Kernel.Points
import proofs.«156661_j85933705659009_2_alg».proof.Proof.Gen.Kernel.Frame
import proofs.«156661_j85933705659009_2_alg».proof.Proof.Gen.KernelIdeal
import proofs.«156661_j85933705659009_2_alg».proof.Proof.Gen.KernelIdeal.Skeleton
import proofs.«156661_j85933705659009_2_alg».proof.Proof.Gen.KernelIdeal.Launch
import proofs.«156661_j85933705659009_2_alg».proof.Proof.Gen.KernelIdeal.Points
import proofs.«156661_j85933705659009_2_alg».proof.Proof.Gen.KernelIdeal.Frame
import proofs.«156661_j85933705659009_2_alg».proof.Proof.Gen.ReferenceIdeal
import proofs.«156661_j85933705659009_2_alg».proof.Proof.Gen.Pre_finite_inputs
import proofs.«156661_j85933705659009_2_alg».proof.Proof.RefRun
import proofs.«156661_j85933705659009_2_alg».proof.Proof.RefVal
import proofs.«156661_j85933705659009_2_alg».proof.Proof.KRun
import proofs.«156661_j85933705659009_2_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference network of the arguments in their result: the kernel's by reading its run
    back through the two regions, the reference's because that network is its operations composed. -/
theorem algebraic : Cert.algebraic_KernelIdeal_ReferenceIdeal := by
  intro m ρ m' ρ' _ hagree
  refine ⟨fun c => Cert.RSpec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KVal.kernel_value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8⟩ := hagree c
    rw [Cert.RefVal.res_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
